-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S4096 : Shape := ⟨1, ![4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S64x4096 .f32) (main_arg1 : FVec F S4096x4096 .f32) (main_arg2 : FVec F S4096 .f32) (main_arg3 : IVec S4096x4096 1) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S64x4096 : Shape := ⟨2, ![64, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1x256 : Shape := ⟨2, ![1, 256]⟩
abbrev S64x256 : Shape := ⟨2, ![64, 256]⟩

abbrev nBuf : Space → Nat
  | .hbm => 7
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S1x4096, .f32⟩
  | .hbm, ⟨5, _⟩ => ⟨S4096x4096, .i32⟩
  | .hbm, ⟨6, _⟩ => ⟨S64x4096, .f32⟩
  | .local _ .vmem, ⟨0, _⟩ => ⟨S64x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .i32⟩
  | .local _ .vmem, ⟨4, _⟩ => ⟨S256x4096, .i32⟩
  | .local _ .vmem, ⟨5, _⟩ => ⟨S1x256, .f32⟩
  | .local _ .vmem, ⟨6, _⟩ => ⟨S1x256, .f32⟩
  | .local _ .vmem, ⟨7, _⟩ => ⟨S64x256, .f32⟩
  | .local _ .vmem, ⟨8, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  natLt_1_32 : 1 < 32
  inb_S256x4096_S256x4096_0_0 : ∀ a, (![0, 0] : Fin 2 → Nat) a + S256x4096.size a ≤ S256x4096.size a
  h_S256x4096 : 0 < S256x4096.numel
  inb_S64x4096_S64x4096_0_0 : ∀ a, (![0, 0] : Fin 2 → Nat) a + S64x4096.size a ≤ S64x4096.size a
  h_S64x4096 : 0 < S64x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .i32 = 32 ∨ (Rect.block (s := S4096x4096) S256x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x4096.size a
  hwx0_4 : ∀ i : grid0.Coords, EltTy.bits .f32 = 32 ∨ (Rect.block (s := S64x4096) S64x256.size (cc0_transform_4 i) (hinb0_4 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S64x4096, .f32⟩
  | .hbm, ⟨8, _⟩ => ⟨S1x4096, .f32⟩
  | .hbm, ⟨9, _⟩ => ⟨S64x4096, .f32⟩
  | .hbm, ⟨10, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  dot_S64x4096_S4096x4096_S64x4096_1_0_0_1_n_n_wf : DotDims.WF S64x4096 S4096x4096 S64x4096 [1] [0] [0] [1] [] []

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

class Facts : Prop extends Facts₀ where

variable [Facts]
-- ==== Proof.MaskedLinear.lean ====
/-
  A linear layer whose weight matrix is thinned by a mask of bits, as ONE function of its four argument arrays over
  the extended reals:

      layer x W bias mask (b, o) = (∑ k, x (b, k) * kept (mask (o, k)) (W (o, k))) + bias o,

  where `kept bit w` is `w` when the bit is set and `0` otherwise: row `o` of the weights, with its masked entries
  struck out, against row `b` of the input, plus the bias of output feature `o`.

  A mask bit can act on a weight in two ways, and both are `kept`:
    * as a factor — the bit read as the number 0 or 1 and multiplied into the weight (`mul_bit`): `w * 1 = w` and
      `w * 0 = 0` hold for EVERY extended real `w`, the infinities included, so no finiteness is asked of `w`;
    * as a choice — the bit widened to a 32-bit word, compared against the zero word, and the comparison's bit
      choosing between the weight and the zero constant (`choose_bit`).
-/
import Idealize.ShloMosaic.PureOps.Ideal.Laws
import Idealize.ShloMosaic.Lib.ValueIdx

noncomputable section

open scoped BigOperators

namespace Cert.MaskedLinear

open Idealize.ShloMosaic Idealize.ShloMosaic.ValueIdx

/-- A weight under its mask bit: itself where the bit is set, zero where it is clear. -/
def kept (bit : BitVec 1) (w : EReal) : EReal := if bit = 1#1 then w else 0

/-- THE LAYER: entry `(b, o)` is the sum over the 4096 input features `k` of the input's `(b, k)` times the kept weight
    `(o, k)`, plus the bias at `o`. -/
def layer (x : (⟨2, ![64, 4096]⟩ : Shape).Idx → EReal) (W : (⟨2, ![4096, 4096]⟩ : Shape).Idx → EReal)
    (bias : (⟨1, ![4096]⟩ : Shape).Idx → EReal) (mask : (⟨2, ![4096, 4096]⟩ : Shape).Idx → BitVec 1) :
    (⟨2, ![64, 4096]⟩ : Shape).Idx → EReal :=
  fun i => (∑ k : Fin 4096, x (ix2 (i 0) k) * kept (mask (ix2 (i 1) k)) (W (ix2 (i 1) k))) + bias (ix1 (i 1))

/-- The bit as a FACTOR: a weight times its mask bit read as a number is the kept weight — on all of the extended
    reals, since `w * 1 = w` and `w * 0 = 0` there without exception. -/
theorem mul_bit (bit : BitVec 1) (w : EReal) : w * ((bit.toNat : ℝ) : EReal) = kept bit w := by
  rcases BitVec.eq_zero_or_eq_one bit with h | h
  · subst h; rw [kept, if_neg (by decide)]; simp
  · subst h; rw [kept, if_pos rfl]; simp

/-- The bit as a CHOICE: widened to 32 bits and tested against the zero word, it chooses the weight exactly when it is
    set; the other branch is the zero constant, which is the extended real `0`. -/
theorem choose_bit (bit : BitVec 1) (w : EReal) :
    Scalar.select (IntOp.cmpi .ne (bit.setWidth 32) 0#32) w (Ideal.ofBits .f32 0x00000000#32) = kept bit w := by
  rw [Ideal.ofBits_zero_f32]
  rcases BitVec.eq_zero_or_eq_one bit with h | h
  · subst h; rw [kept, if_neg (by decide)]; rfl
  · subst h; rw [kept, if_pos rfl]; rfl

end Cert.MaskedLinear

end
-- ==== Proof.ReferenceLayer.lean ====
/-
  The reference program's result is the layer. Its seven operations, read at an entry `(b, o)`:
  the mask bits become numbers, the weights are multiplied by them entry by entry, the product is transposed, the
  input is contracted against the transpose over the 4096 input features (so the contraction reads the UNtransposed
  product at `(o, k)`), and the bias — laid out as one row and repeated over the 64 rows — is added. That is
  `∑ k, x (b, k) * (W (o, k) * bit (o, k)) + bias o`, and the factor form of the mask is the kept weight
  (`MaskedLinear.mul_bit`).
-/
import proofs.«149344_g26448408609383_retrytranche2_1839_2_alg».proof.Proof.Gen.ReferenceIdeal.Read
import proofs.«149344_g26448408609383_retrytranche2_1839_2_alg».proof.Proof.MaskedLinear

noncomputable section

open scoped BigOperators

namespace Cert.MaskedLinear.Reference

open Cert.ReferenceIdeal Cert.ReferenceIdeal.Read Idealize.ShloMosaic Idealize.ShloMosaic.ValueIdx

/-- The contraction reads the input at row `b`, feature `k`. -/
theorem input_at (i : S64x4096.Idx) (k : Fin 4096) : lidx_main_v3 i k = ix2 (i 0) k :=
  funext fun a => Fin.ext (by match a with | ⟨0, _⟩ => rfl | ⟨1, _⟩ => rfl)

/-- Through the transpose, the contraction reads the masked weights at output feature `o`, input feature `k`. -/
theorem weight_at (i : S64x4096.Idx) (k : Fin 4096) : idx_main_v2 (ridx_main_v3 i k) = ix2 (i 1) k :=
  funext fun a => Fin.ext (by match a with | ⟨0, _⟩ => rfl | ⟨1, _⟩ => rfl)

/-- Through the two broadcasts, the sum's second operand reads the bias at output feature `o`. -/
theorem bias_at (i : S64x4096.Idx) : idx_main_v4 (idx_main_v5 i) = ix1 (i 1) :=
  funext fun a => Fin.ext (by match a with | ⟨0, _⟩ => rfl)

/-- THE REFERENCE IS THE LAYER, entry by entry. -/
theorem result_eq (x : (⟨S64x4096, .f32⟩ : BufTy).Contents (Elt Ideal)) (W : (⟨S4096x4096, .f32⟩ : BufTy).Contents (Elt Ideal))
    (bias : (⟨S4096, .f32⟩ : BufTy).Contents (Elt Ideal)) (mask : (⟨S4096x4096, .i1⟩ : BufTy).Contents (Elt Ideal)) :
    val_main_v6 (F := Ideal) x W bias mask = layer x W bias mask := by
  funext i
  rw [val_main_v6_apply, val_main_v3_apply, val_main_v5_apply, val_main_v4_apply, bias_at]
  refine congrArg₂ (· + ·) (Finset.sum_congr rfl fun k _ => ?_) rfl
  rw [val_main_v2_apply, val_main_v1_apply, val_main_v0_apply, input_at, weight_at]
  exact congrArg (x (ix2 (i 0) k) * ·) (mul_bit _ _)

end Cert.MaskedLinear.Reference

end
-- ==== Proof.BodyEntry.lean ====
/-
  What the kernel body stores, read at one entry. The body holds a block of 256 output features: the 256 × 4096 block
  of weights, the same block of mask words (each bit widened to 32 bits before the launch), the whole 64 × 4096 input
  and the 1 × 256 block of biases. It strikes out the weights whose mask word is zero, contracts the input against the
  result over the 4096 input features into a zero accumulator, and adds the bias row repeated over the 64 rows. So at
  row `p`, feature `q` of the block it stores

      (∑ k, x (p, k) * (if word (q, k) ≠ 0 then w (q, k) else 0)) + bias (0, q).

  The contraction is over one axis of each operand (axis 1 of both): its index set is re-indexed by that one
  coordinate, and the operands' indices at `(p, q)` and `k` are `(p, k)` and `(q, k)`.
-/
import proofs.«149344_g26448408609383_retrytranche2_1839_2_alg».proof.Proof.Gen.KernelIdeal.Skeleton
import proofs.«149344_g26448408609383_retrytranche2_1839_2_alg».proof.Proof.MaskedLinear
import Idealize.ShloMosaic.Lib.ValueLayout
import Idealize.ShloMosaic.Lib.Pipeline.Value

noncomputable section

open scoped BigOperators

namespace Cert.MaskedLinear.Body

open Cert.KernelIdeal Cert.KernelIdeal.Gen Idealize.ShloMosaic Idealize.ShloMosaic.ValueIdx

/-- The left operand's row is the output's row. -/
theorem lhs_row (j : S64x256.Idx) (κ : dot_S64x4096_S256x4096_S64x256_1_1_0_0_n_n.contr.Idx) : (dot_S64x4096_S256x4096_S64x256_1_1_0_0_n_n.lhsIdx j κ 0).val = (j 0).val := by
  unfold DotDims.lhsIdx
  rw [dif_neg (show ¬(0 : Fin S64x4096.rank) ∈ dot_S64x4096_S256x4096_S64x256_1_1_0_0_n_n.lhsBatch by decide),
    dif_pos (show (0 : Fin S64x4096.rank) ∈ dot_S64x4096_S256x4096_S64x256_1_1_0_0_n_n.lhsNonContracting by decide)]
  rfl

/-- The right operand's row is the output's COLUMN: the block of weights is contracted along its own rows' entries,
    never transposed in memory. -/
theorem rhs_row (j : S64x256.Idx) (κ : dot_S64x4096_S256x4096_S64x256_1_1_0_0_n_n.contr.Idx) : (dot_S64x4096_S256x4096_S64x256_1_1_0_0_n_n.rhsIdx j κ 0).val = (j 1).val := by
  unfold DotDims.rhsIdx
  rw [dif_neg (show ¬(0 : Fin S256x4096.rank) ∈ dot_S64x4096_S256x4096_S64x256_1_1_0_0_n_n.rhsBatch by decide),
    dif_pos (show (0 : Fin S256x4096.rank) ∈ dot_S64x4096_S256x4096_S64x256_1_1_0_0_n_n.rhsNonContracting by decide)]
  rfl

/-- The block product into a zero accumulator, at an entry: the plain sum over the input features. -/
theorem product_at (x : FVec Ideal S64x4096 .f32) (w : FVec Ideal S256x4096 .f32) (j : S64x256.Idx) :
    matmul dot_S64x4096_S256x4096_S64x256_1_1_0_0_n_n none x w (constant S64x256 .f32 0x00000000#32) j = ∑ k : Fin 4096, x (ix2 (j 0) k) * w (ix2 (j 1) k) := by
  simp only [matmul]
  rw [Ideal.matmul_constant_zero_apply, ← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx j ((contrEquiv1 dot_S64x4096_S256x4096_S64x256_1_1_0_0_n_n 4096 rfl rfl).symm k) = ix2 (j 0) k := funext fun a => Fin.ext (by
    match a with
    | ⟨0, _⟩ => exact lhs_row _ _
    | ⟨1, _⟩ => exact (dot_S64x4096_S256x4096_S64x256_1_1_0_0_n_n.lhsIdx_val_of_single rfl j _).trans hk)
  have er : dot_S64x4096_S256x4096_S64x256_1_1_0_0_n_n.rhsIdx j ((contrEquiv1 dot_S64x4096_S256x4096_S64x256_1_1_0_0_n_n 4096 rfl rfl).symm k) = ix2 (j 1) k := funext fun a => Fin.ext (by
    match a with
    | ⟨0, _⟩ => exact rhs_row _ _
    | ⟨1, _⟩ => exact (dot_S64x4096_S256x4096_S64x256_1_1_0_0_n_n.rhsIdx_val_of_single rfl j _).trans hk)
  rw [el, er]
  rfl

/-- THE STORE AT `(p, q)`: the input's row `p` against the block's row `q` of weights, those under a zero mask word
    struck out, plus the bias of feature `q`. -/
theorem store_at (word : Vec Ideal S256x4096 .i32) (w : Vec Ideal S256x4096 .f32) (x : Vec Ideal S64x4096 .f32)
    (b : Vec Ideal S1x256 .f32) (p : Fin 64) (q : Fin 256) :
    k0_pay1 (F := Ideal) word w x b (ix2 p q)
      = (∑ k : Fin 4096, x (ix2 p k)
          * Scalar.select (IntOp.cmpi .ne (word (ix2 q k)) 0#32) (w (ix2 q k)) (Ideal.ofBits .f32 0x00000000#32))
        + b (ix2 (0 : Fin 1) q) := by
  unfold k0_pay1
  refine congrArg₂ (· + ·) ((product_at _ _ _).trans ?_) ((broadcastTo_1b_ab_apply _ _ p q).trans ?_)
  · rfl
  · rw [shapeCast_self]

end Cert.MaskedLinear.Body

end
-- ==== Proof.KernelLayer.lean ====
/-
  The kernel's result array is the layer. The launch walks 16 grid points; point `t` holds output features
  `256 t … 256 t + 255`: rows `256 t …` of the weights and of the mask words, columns `256 t …` of the bias row, the whole
  input, and it writes columns `256 t …` of the 64 × 4096 result. Two of the windows read arrays the program itself
  wrote before the launch: the bias reshaped from a vector to one row (`bias_row`) and the mask bits widened to 32-bit
  words (`mask_words`).

  So the block entry `(p, q)` written at point `t` sits at `(p, 256 t + q)` of the result (`out_pos`), and the blocks the
  body read there are the argument arrays at `(p, k)`, `(256 t + q, k)`, `(256 t + q, k)` and `256 t + q`
  (`input_read`, `weight_read`, `word_read`, `bias_read`). With the body's store read at an entry (`Body.store_at`) and
  the mask bit acting as a choice (`choose_bit`), what point `t` writes back is block `t` of `layer` (`written_eq`). The
  16 blocks tile the 4096 columns — column `o` is in block `o / 256` (`cover`) — so after the run the array is `layer` of
  the four argument arrays (`result_eq`, `run`).
-/
import proofs.«149344_g26448408609383_retrytranche2_1839_2_alg».proof.Proof.Gen.KernelIdeal.Value
import proofs.«149344_g26448408609383_retrytranche2_1839_2_alg».proof.Proof.BodyEntry
import Idealize.ShloMosaic.Lib.StableHlo.Run

noncomputable section

open scoped BigOperators

namespace Cert.MaskedLinear.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The body's loads and its store start at the corner of their buffers. -/
theorem zero_offsets : (![0, 0] : Fin 2 → Nat) = fun _ => 0 := funext fun a => by fin_cases a <;> rfl

/-! ## Where each window's block sits -/

/-- The printed index maps, decided over the 16 points: the input stays put, the weights and the mask words move down
    by rows with the point, the bias row and the result move right by columns with it. -/
theorem block_at : ∀ t : Fin cfg0.N, t.val < 16
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Every one of the 16 column blocks of the result is some point's. -/
theorem point_of_block : ∀ j : Fin 16, ∃ t : Fin cfg0.N, win0_4.index t = ![0, j.val] :=
  (by decide +kernel : ∀ j : Fin 16, ∃ t : Fin grid0.N, win0_4.index t = ![0, j.val])

/-! ## The two arrays the program writes before the launch -/

/-- The bias window's array: the bias vector laid out as one row. -/
theorem bias_row (c : Dev nD) :
    (V m c main_v0 : S1x4096.Idx → EReal) = shapeCast S1x4096 (m ((c : Thread nD τ).loc main_arg2)) shapeCasts_S4096_S1x4096 := by
  dsimp only [V, hostOps0]; after_results; rfl

/-- The mask window's array: every mask bit widened to a 32-bit word. -/
theorem mask_words (c : Dev nD) :
    (V m c main_v1 : S4096x4096.Idx → BitVec 32) = extui 32 (m ((c : Thread nD τ).loc main_arg3)) natLt_1_32 := by
  dsimp only [V, hostOps0]; after_results

/-! ## The blocks at point `t`, entry by entry -/

/-- Output feature `256 t + q`, for `q` inside the block of point `t`. -/
abbrev feature (t : Fin cfg0.N) (q : Fin 256) : Fin 4096 := ⟨256 * t.val + q.val, by have := (block_at t).1; omega⟩

/-- Entry `(p, q)` of the block written at point `t` is entry `(p, 256 t + q)` of the result. -/
theorem out_pos (t : Fin cfg0.N) (p : Fin 64) (q : Fin 256) :
    (((cfg0.win 4).blk t).view.emb (ix2 p q) : S64x4096.Idx) = ix2 p (feature t q) := by
  obtain ⟨-, -, -, -, -, -, -, -, -, e0, e1⟩ := block_at t
  funext a; apply Fin.ext
  match a with
  | ⟨0, _⟩ => show win0_4.index t (0 : Fin 2) * 64 + 1 * p.val = p.val; omega
  | ⟨1, _⟩ => show win0_4.index t (1 : Fin 2) * 256 + 1 * q.val = 256 * t.val + q.val; omega

/-- The input block is the whole input. -/
theorem input_read (c : Dev nD) (t : Fin cfg0.N) (p : Fin 64) (k : Fin 4096) :
    iblk m c 0 t (ix2 p k) = m ((c : Thread nD τ).loc main_arg0) (ix2 p k) := by
  obtain ⟨-, e0, e1, -⟩ := block_at t
  show V m c main_arg0 (((cfg0.win 0).blk t).view.emb (ix2 p k)) = _
  rw [V_main_arg0]
  refine congrArg _ (funext fun a => Fin.ext ?_)
  match a with
  | ⟨0, _⟩ => show win0_0.index t (0 : Fin 2) * 64 + 1 * p.val = p.val; omega
  | ⟨1, _⟩ => show win0_0.index t (1 : Fin 2) * 4096 + 1 * k.val = k.val; omega

/-- Row `q` of the weight block is row `256 t + q` of the weights. -/
theorem weight_read (c : Dev nD) (t : Fin cfg0.N) (q : Fin 256) (k : Fin 4096) :
    iblk m c 1 t (ix2 q k) = m ((c : Thread nD τ).loc main_arg1) (ix2 (feature t q) k) := by
  obtain ⟨-, -, -, e0, e1, -⟩ := block_at t
  show V m c main_arg1 (((cfg0.win 1).blk t).view.emb (ix2 q k)) = _
  rw [V_main_arg1]
  refine congrArg _ (funext fun a => Fin.ext ?_)
  match a with
  | ⟨0, _⟩ => show win0_1.index t (0 : Fin 2) * 256 + 1 * q.val = 256 * t.val + q.val; omega
  | ⟨1, _⟩ => show win0_1.index t (1 : Fin 2) * 4096 + 1 * k.val = k.val; omega

/-- Row `q` of the block of mask words is row `256 t + q` of the mask, each bit widened. -/
theorem word_read (c : Dev nD) (t : Fin cfg0.N) (q : Fin 256) (k : Fin 4096) :
    iblk m c 2 t (ix2 q k) = (m ((c : Thread nD τ).loc main_arg3) (ix2 (feature t q) k)).setWidth 32 := by
  obtain ⟨-, -, -, -, -, e0, e1, -⟩ := block_at t
  show V m c main_v1 (((cfg0.win 2).blk t).view.emb (ix2 q k)) = _
  rw [mask_words]
  refine congrArg (fun i => (m ((c : Thread nD τ).loc main_arg3) i).setWidth 32) (funext fun a => Fin.ext ?_)
  match a with
  | ⟨0, _⟩ => show win0_2.index t (0 : Fin 2) * 256 + 1 * q.val = 256 * t.val + q.val; omega
  | ⟨1, _⟩ => show win0_2.index t (1 : Fin 2) * 4096 + 1 * k.val = k.val; omega

/-- Column `q` of the bias block is the bias of feature `256 t + q`. -/
theorem bias_read (c : Dev nD) (t : Fin cfg0.N) (q : Fin 256) :
    iblk m c 3 t (ix2 (0 : Fin 1) q) = m ((c : Thread nD τ).loc main_arg2) (ix1 (feature t q)) := by
  obtain ⟨-, -, -, -, -, -, -, e0, e1, -⟩ := block_at t
  show V m c main_v0 (((cfg0.win 3).blk t).view.emb (ix2 (0 : Fin 1) q)) = _
  rw [bias_row]
  have e : (((cfg0.win 3).blk t).view.emb (ix2 (0 : Fin 1) q) : S1x4096.Idx) = ix2 (0 : Fin 1) (feature t q) :=
    funext fun a => Fin.ext (by
      match a with
      | ⟨0, _⟩ => show win0_3.index t (0 : Fin 2) * 1 + 1 * 0 = 0; omega
      | ⟨1, _⟩ => show win0_3.index t (1 : Fin 2) * 256 + 1 * q.val = 256 * t.val + q.val; omega)
  rw [e]
  exact shapeCast_a_1a_apply _ _ 0 _

/-! ## What a point writes back, the cover, and the array after the run -/

/-- The layer of the four argument arrays as launched on core `c`. -/
abbrev layerOf (c : Dev nD) : S64x4096.Idx → EReal :=
  layer (m ((c : Thread nD τ).loc main_arg0)) (m ((c : Thread nD τ).loc main_arg1)) (m ((c : Thread nD τ).loc main_arg2))
    (m ((c : Thread nD τ).loc main_arg3))

/-- WHAT POINT `t` WRITES BACK is block `t` of the layer. -/
theorem written_eq (c : Dev nD) (t : Fin cfg0.N) :
    (dats m 0 c).flushed 4 t = ((cfg0.win 4).blk t).view.read (Elt Ideal) (layerOf m c) := by
  rw [Value.flushed4]
  unfold out0_4
  rw [View.canon_unit_zero zero_offsets]
  simp only [View.ld_unit_zero (S := S256x4096) zero_offsets, View.ld_unit_zero (S := S64x4096) zero_offsets,
    View.ld_unit_zero (S := S1x256) zero_offsets]
  funext y
  obtain ⟨p, q, rfl⟩ : ∃ (p : Fin 64) (q : Fin 256), y = ix2 p q := ⟨y 0, y 1, eq_ix2 y⟩
  show k0_pay1 (F := Ideal) (iblk m c 2 t) (iblk m c 1 t) (iblk m c 0 t) (iblk m c 3 t) (ix2 p q)
    = layerOf m c (((cfg0.win 4).blk t).view.emb (ix2 p q))
  refine (Body.store_at (iblk m c 2 t) (iblk m c 1 t) (iblk m c 0 t) (iblk m c 3 t) p q).trans ?_
  rw [out_pos t p q]
  refine congrArg₂ (· + ·) (Finset.sum_congr rfl fun k _ => ?_) (bias_read m c t q)
  rw [input_read m c t p k, weight_read m c t q k, word_read m c t q k]
  exact congrArg₂ (fun a z : EReal => a * z) rfl (choose_bit _ _)

/-- An entry of the result is in point `t`'s block iff each coordinate is in the block's range on its axis. -/
theorem mem_block (t : Fin cfg0.N) (i : S64x4096.Idx) :
    i ∈ ((cfg0.win 4).blk t).view.set ↔ ∀ a : Fin 2, win0_4.index t a * S64x256.size a ≤ (i a).val
      ∧ (i a).val < win0_4.index t a * S64x256.size a + S64x256.size a := by
  show i ∈ ((View.whole main_v2).slice (win0_4.rect t)).set ↔ _
  rw [View.set_slice_whole, Rect.mem_set_unit]
  exact Iff.rfl

/-- THE COVER: column `o` of the result lies in the block of point `o / 256`, and every point writes back. -/
theorem cover (i : S64x4096.Idx) : ∃ t : Fin cfg0.N, (cfg0.win 4).flush t = true ∧ i ∈ ((cfg0.win 4).blk t).view.set := by
  have hi0 : (i 0).val < 64 := (i 0).isLt
  have hi1 : (i 1).val < 4096 := (i 1).isLt
  obtain ⟨t, ht⟩ := point_of_block ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_block]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 256 ≤ (i 1).val ∧ (i 1).val < win0_4.index t (1 : Fin 2) * 256 + 256; omega

/-- THE ARRAY AFTER THE RUN is the layer of the argument arrays. -/
theorem result_eq (c : Dev nD) : (dats m 0 c).arrAt 4 cfg0.N = layerOf m c :=
  (dats m 0 c).arrAt_eq_of_cover 4 (layerOf m c) (fun t _ => written_eq m c t) cover

/-- THE RUN: every weakly fair execution ends with the result array at the layer of the arguments, the arguments
    unchanged. -/
theorem run : θ_run defs (onTc (τ := τ) (main (F := Ideal))) ⟨m, fun _ => 0, ρ⟩ fun r => ∀ c : Dev nD,
      r.2.mem ((c : Thread nD τ).loc main_v2) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Value.run_blocks m ρ)

end Cert.MaskedLinear.Kernel

end
-- ==== Proof.lean ====
/-
  A linear layer with a masked weight matrix, `y = x · (W ∘ mask)ᵀ + bias` over float32[64, 4096] inputs and 4096 output
  features, computed two ways that agree on the extended reals.

  THE KERNEL walks the output features in 16 blocks of 256. At each block it holds the block's rows of the weights and
  of the mask (each bit widened to a 32-bit word beforehand), strikes out the weights whose mask word is zero by a
  select against the zero constant, contracts the whole input against the result over the 4096 input features into a
  zero accumulator, and adds the block's biases. THE REFERENCE turns the mask bits into the numbers 0 and 1, multiplies
  the weights by them, transposes, contracts the input against the transpose, and adds the bias broadcast over the rows.

  Both are the one function `MaskedLinear.layer`:
      (b, o) ↦ (∑ k, x (b, k) * kept (mask (o, k)) (W (o, k))) + bias o.
  The only law between the two sides is how a mask bit acts on a weight — as a choice in the kernel, as a factor in the
  reference — and both are `kept`: `w * 1 = w` and `w * 0 = 0` hold for every extended real, so the precondition
  (finite inputs) is never opened. The sums are over the same index set in the same form, so no reordering is used.

  Modules: MaskedLinear (the layer, and the two readings of a mask bit), ReferenceLayer (the reference's seven
  operations composed are the layer), BodyEntry (the kernel body's store at an entry), KernelLayer (the 16 blocks
  tile the result, so the array after the run is the layer). The idealization rewrote no operation, so that claim
  is `True`; the three termination-and-frame claims are the generated runs.
-/
import proofs.«149344_g26448408609383_retrytranche2_1839_2_alg».proof.Defs
import proofs.«149344_g26448408609383_retrytranche2_1839_2_alg».proof.Proof.Gen.Kernel
import proofs.«149344_g26448408609383_retrytranche2_1839_2_alg».proof.Proof.Gen.Kernel.Skeleton
import proofs.«149344_g26448408609383_retrytranche2_1839_2_alg».proof.Proof.Gen.Kernel.Launch
import proofs.«149344_g26448408609383_retrytranche2_1839_2_alg».proof.Proof.Gen.Kernel.Points
import proofs.«149344_g26448408609383_retrytranche2_1839_2_alg».proof.Proof.Gen.Kernel.Frame
import proofs.«149344_g26448408609383_retrytranche2_1839_2_alg».proof.Proof.Gen.KernelIdeal
import proofs.«149344_g26448408609383_retrytranche2_1839_2_alg».proof.Proof.Gen.KernelIdeal.Skeleton
import proofs.«149344_g26448408609383_retrytranche2_1839_2_alg».proof.Proof.Gen.KernelIdeal.Launch
import proofs.«149344_g26448408609383_retrytranche2_1839_2_alg».proof.Proof.Gen.KernelIdeal.Points
import proofs.«149344_g26448408609383_retrytranche2_1839_2_alg».proof.Proof.Gen.KernelIdeal.Frame
import proofs.«149344_g26448408609383_retrytranche2_1839_2_alg».proof.Proof.Gen.ReferenceIdeal
import proofs.«149344_g26448408609383_retrytranche2_1839_2_alg».proof.Proof.Gen.Pre_finite_inputs
import proofs.«149344_g26448408609383_retrytranche2_1839_2_alg».proof.Proof.Gen.KernelIdeal.Value
import proofs.«149344_g26448408609383_retrytranche2_1839_2_alg».proof.Proof.Gen.ReferenceIdeal.Run
import proofs.«149344_g26448408609383_retrytranche2_1839_2_alg».proof.Proof.Gen.ReferenceIdeal.Read
import Idealize.ShloMosaic.Adequacy
import Idealize.ShloMosaic.Init
import proofs.«149344_g26448408609383_retrytranche2_1839_2_alg».proof.Proof.MaskedLinear
import proofs.«149344_g26448408609383_retrytranche2_1839_2_alg».proof.Proof.ReferenceLayer
import proofs.«149344_g26448408609383_retrytranche2_1839_2_alg».proof.Proof.KernelLayer

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: there is nothing to preserve. -/
theorem preserves : Cert.preserves_Kernel_KernelIdeal := trivial

/-- From memories that agree on the four arguments, the kernel's result array ends at the layer of its arguments
    (`Kernel.run`) and the reference's at its seven operations' term, which is the layer of ITS arguments
    (`Reference.result_eq`) — the same arrays, by the agreement. -/
theorem algebraic : Cert.algebraic_KernelIdeal_ReferenceIdeal := by
  intro m ρ m' ρ' _ hagree
  refine ⟨fun c => Cert.MaskedLinear.Kernel.layerOf m c, Cert.MaskedLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.MaskedLinear.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
